-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x2 .f32) (main_arg4 : FVec F S2 .f32) (main_arg5 : IVec S2x3200000 32) (main_arg6 : IVec S100000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S256x2 : Shape := ⟨2, ![256, 2]⟩
abbrev S100000x1 : Shape := ⟨2, ![100000, 1]⟩
abbrev S256 : Shape := ⟨1, ![256]⟩
abbrev S256x1 : Shape := ⟨2, ![256, 1]⟩

abbrev nBuf : Space → Nat
  | .hbm => 114
  | .vmem => 5
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S100000x16, .f32⟩
  | .hbm, ⟨41, _⟩ => ⟨S3300000x1, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x16, .f32⟩
  | .hbm, ⟨51, _⟩ => ⟨S3300000x16, .f32⟩
  | .hbm, ⟨52, _⟩ => ⟨S3300000x16, .f32⟩
  | .hbm, ⟨53, _⟩ => ⟨S_, .f32⟩
  | .hbm, ⟨54, _⟩ => ⟨S100000x16, .f32⟩
  | .hbm, ⟨55, _⟩ => ⟨S3300000x1, .i32⟩
  | .hbm, ⟨56, _⟩ => ⟨S100000x16, .f32⟩
  | .hbm, ⟨57, _⟩ => ⟨S1x16, .f32⟩
  | .hbm, ⟨58, _⟩ => ⟨S100000x16, .f32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | .hbm, ⟨63, _⟩ => ⟨S100000x2, .f32⟩
  | .hbm, ⟨64, _⟩ => ⟨S3300000x1, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x2, .f32⟩
  | .hbm, ⟨74, _⟩ => ⟨S3300000x2, .f32⟩
  | .hbm, ⟨75, _⟩ => ⟨S3300000x2, .f32⟩
  | .hbm, ⟨76, _⟩ => ⟨S_, .f32⟩
  | .hbm, ⟨77, _⟩ => ⟨S100000x2, .f32⟩
  | .hbm, ⟨78, _⟩ => ⟨S3300000x1, .i32⟩
  | .hbm, ⟨79, _⟩ => ⟨S100000x2, .f32⟩
  | .hbm, ⟨80, _⟩ => ⟨S1x2, .f32⟩
  | .hbm, ⟨81, _⟩ => ⟨S100000x2, .f32⟩
  | .hbm, ⟨82, _⟩ => ⟨S100000x2, .f32⟩
  | .hbm, ⟨83, _⟩ => ⟨S_, .f32⟩
  | .hbm, ⟨84, _⟩ => ⟨S256x2, .f32⟩
  | .hbm, ⟨85, _⟩ => ⟨S100000x1, .i32⟩
  | .hbm, ⟨86, _⟩ => ⟨S256x2, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S256, .f32⟩
  | .hbm, ⟨91, _⟩ => ⟨S100000x1, .i32⟩
  | .hbm, ⟨92, _⟩ => ⟨S256, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S256x1, .f32⟩
  | .hbm, ⟨97, _⟩ => ⟨S256x2, .f32⟩
  | .hbm, ⟨98, _⟩ => ⟨S256x2, .f32⟩
  | .hbm, ⟨99, _⟩ => ⟨S_, .f32⟩
  | .hbm, ⟨100, _⟩ => ⟨S256, .f32⟩
  | .hbm, ⟨101, _⟩ => ⟨S_, .f32⟩
  | .hbm, ⟨102, _⟩ => ⟨S256, .f32⟩
  | .hbm, ⟨103, _⟩ => ⟨S256, .f32⟩
  | .hbm, ⟨104, _⟩ => ⟨S256x1, .f32⟩
  | .hbm, ⟨105, _⟩ => ⟨S256x2, .f32⟩
  | .hbm, ⟨106, _⟩ => ⟨S256x2, .f32⟩
  | .hbm, ⟨107, _⟩ => ⟨S256x2, .f32⟩
  | .hbm, ⟨108, _⟩ => ⟨S_, .f32⟩
  | .hbm, ⟨109, _⟩ => ⟨S256, .f32⟩
  | .hbm, ⟨110, _⟩ => ⟨S256x1, .f32⟩
  | .hbm, ⟨111, _⟩ => ⟨S256x1, .f32⟩
  | .hbm, ⟨112, _⟩ => ⟨S256x2, .f32⟩
  | .hbm, ⟨113, _⟩ => ⟨S256x2, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call1_cst : Ref sig .tc := ⟨.hbm, 99, rfl⟩
abbrev main_call1_v0 : Ref sig .tc := ⟨.hbm, 100, rfl⟩
abbrev main_call1_cst_0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_cst_1 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_v74 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S256x2 : S_.BroadcastsInDim S256x2 (![] : Fin 0 → Fin S256x2.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  reducesTo_S256x2_S256_d1 : S256x2.ReducesTo [1] S256
  h_S_ : 0 < S_.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  scatter_S256x2_S100000x1_S100000x2_1_0_0_1_wf : ScatterDims.WF S256x2 S100000x1 S100000x2 [1] [0] [0] 1
  scatter_S256_S100000x1_S100000_n_0_0_1_wf : ScatterDims.WF S256 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def scatter_S256x2_S100000x1_S100000x2_1_0_0_1 : ScatterDims S256x2 S100000x1 S100000x2 where
  updateWindowDims := [1]
  insertedWindowDims := [0]
  scatterDimsToOperandDims := [0]
  indexVectorDim := 1
  wf := scatter_S256x2_S100000x1_S100000x2_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S100000x16 : Shape := ⟨2, ![100000, 16]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S256x2 : Shape := ⟨2, ![256, 2]⟩
abbrev S100000x1 : Shape := ⟨2, ![100000, 1]⟩
abbrev S256 : Shape := ⟨1, ![256]⟩
abbrev S256x1 : Shape := ⟨2, ![256, 1]⟩

abbrev nBuf : Space → Nat
  | .hbm => 143
  | .vmem => 0
  | .smem => 0
  | _ => 0

abbrev hbmTy0_0 (i : Nat) : BufTy := match i % 128 with
  | 0 => ⟨S100000x512, .f32⟩
  | 1 => ⟨S512x16, .f32⟩
  | 2 => ⟨S16, .f32⟩
  | 3 => ⟨S16x2, .f32⟩
  | 4 => ⟨S2, .f32⟩
  | 5 => ⟨S2x3200000, .i32⟩
  | 6 => ⟨S100000, .i32⟩
  | 7 => ⟨S1x3200000, .i32⟩
  | 8 => ⟨S3200000, .i32⟩
  | 9 => ⟨S1x3200000, .i32⟩
  | 10 => ⟨S3200000, .i32⟩
  | 11 => ⟨S100000x16, .f32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S100000, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S3300000, .f32⟩
  | 41 => ⟨S3300000x1, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000x16, .f32⟩
  | 51 => ⟨S3300000x16, .f32⟩
  | 52 => ⟨S3300000x16, .f32⟩
  | 53 => ⟨S_, .f32⟩
  | 54 => ⟨S100000x16, .f32⟩
  | 55 => ⟨S3300000x1, .i32⟩
  | 56 => ⟨S100000x16, .f32⟩
  | 57 => ⟨S1x16, .f32⟩
  | 58 => ⟨S100000x16, .f32⟩
  | 59 => ⟨S100000x16, .f32⟩
  | 60 => ⟨S_, .f32⟩
  | 61 => ⟨S100000x16, .f32⟩
  | 62 => ⟨S100000x16, .f32⟩
  | 63 => ⟨S100000x2, .f32⟩
  | 64 => ⟨S100000, .i32⟩
  | 65 => ⟨S3300000, .i32⟩
  | 66 => ⟨S3300000, .i32⟩
  | 67 => ⟨S_, .f32⟩
  | 68 => ⟨S3300000, .f32⟩
  | 69 => ⟨S_, .f32⟩
  | 70 => ⟨S100000, .f32⟩
  | 71 => ⟨S3300000x1, .i32⟩
  | 72 => ⟨S100000, .f32⟩
  | 73 => ⟨S100000, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S3300000, .f32⟩
  | 93 => ⟨S3300000x1, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000x2, .f32⟩
  | 103 => ⟨S3300000x2, .f32⟩
  | 104 => ⟨S3300000x2, .f32⟩
  | 105 => ⟨S_, .f32⟩
  | 106 => ⟨S100000x2, .f32⟩
  | 107 => ⟨S3300000x1, .i32⟩
  | 108 => ⟨S100000x2, .f32⟩
  | 109 => ⟨S1x2, .f32⟩
  | 110 => ⟨S100000x2, .f32⟩
  | 111 => ⟨S100000x2, .f32⟩
  | 112 => ⟨S_, .f32⟩
  | 113 => ⟨S256x2, .f32⟩
  | 114 => ⟨S100000x1, .i32⟩
  | 115 => ⟨S256x2, .f32⟩
  | 116 => ⟨S_, .f32⟩
  | 117 => ⟨S100000, .f32⟩
  | 118 => ⟨S_, .f32⟩
  | 119 => ⟨S256, .f32⟩
  | 120 => ⟨S100000x1, .i32⟩
  | 121 => ⟨S256, .f32⟩
  | 122 => ⟨S_, .f32⟩
  | 123 => ⟨S256, .f32⟩
  | 124 => ⟨S256, .f32⟩
  | 125 => ⟨S256x1, .f32⟩
  | 126 => ⟨S256x2, .f32⟩
  | 127 => ⟨S256x2, .f32⟩
  | _ => ⟨S100000x512, .f32⟩

abbrev hbmTy0_1 (i : Nat) : BufTy := match i % 128 with
  | 0 => ⟨S_, .f32⟩
  | 1 => ⟨S256, .f32⟩
  | 2 => ⟨S_, .f32⟩
  | 3 => ⟨S256, .f32⟩
  | 4 => ⟨S256, .f32⟩
  | 5 => ⟨S256x1, .f32⟩
  | 6 => ⟨S256x2, .f32⟩
  | 7 => ⟨S256x2, .f32⟩
  | 8 => ⟨S256x2, .f32⟩
  | 9 => ⟨S_, .f32⟩
  | 10 => ⟨S256, .f32⟩
  | 11 => ⟨S256x1, .f32⟩
  | 12 => ⟨S256x1, .f32⟩
  | 13 => ⟨S256x2, .f32⟩
  | 14 => ⟨S256x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_cst_18 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call1_cst : Ref sig .tc := ⟨.hbm, 128, rfl⟩
abbrev main_call1_v0 : Ref sig .tc := ⟨.hbm, 129, rfl⟩
abbrev main_call1_cst_0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_call1_v5 : Ref sig .tc := ⟨.hbm, 135, rfl⟩
abbrev main_call1_v6 : Ref sig .tc := ⟨.hbm, 136, rfl⟩
abbrev main_call1_cst_1 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_v97 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S256x2 : S_.BroadcastsInDim S256x2 (![] : Fin 0 → Fin S256x2.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  reducesTo_S256x2_S256_d1 : S256x2.ReducesTo [1] S256
  h_S_ : 0 < S_.numel
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  scatter_S256x2_S100000x1_S100000x2_1_0_0_1_wf : ScatterDims.WF S256x2 S100000x1 S100000x2 [1] [0] [0] 1
  scatter_S256_S100000x1_S100000_n_0_0_1_wf : ScatterDims.WF S256 S100000x1 S100000 [] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def scatter_S256x2_S100000x1_S100000x2_1_0_0_1 : ScatterDims S256x2 S100000x1 S100000x2 where
  updateWindowDims := [1]
  insertedWindowDims := [0]
  scatterDimsToOperandDims := [0]
  indexVectorDim := 1
  wf := scatter_S256x2_S100000x1_S100000x2_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.KRun.lean ====
/-
  The run of the program around its one region.

  The program is: 33 host lines (the edge lists with their self loops, the degrees, the
  normalising factor of every edge), ONE region — the row-tiled product x · W1, 25 blocks of 4000
  rows —, then 73 host lines in four stretches (the first aggregation with its bias, the clamp at
  zero, the second product and aggregation, the pooling over graphs and the row-wise log-softmax).

  Here: what the region finds in each buffer (V0), the block of each window at a grid point, what
  the body leaves in the output block (the product of the two input blocks onto a zero
  accumulator), the body's triple, the proof data, and the run: every execution terminates,
  the result buffer ends at the 73 later lines applied to the region's exit contents, and no
  argument array is changed — no host line writes one, and the region writes only its own result.
  Everything is stated at any float instance F.
-/
import proofs.«146940_j78640851189892_2_alg».proof.Proof.Gen.Kernel.Launch
import proofs.«146940_j78640851189892_2_alg».proof.Proof.Gen.Kernel.Skeleton
import proofs.«146940_j78640851189892_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines, and the buffers none of them writes -/

/-- The four stretches of host lines after the region, in order. -/
abbrev tail : List (List (HloOp τ sig (Elt F))) := [hostOps1, hostOps1_1, hostOps1_2, hostOps1_3]

/-- The seven argument arrays and the region's result array: no host line writes any of them. -/
def kept : List (Ref sig .tc) :=
  [main_arg0, main_arg1, main_arg2, main_arg3, main_arg4, main_arg5, main_arg6, main_v27]

/-- A line whose one written buffer is outside the list writes nothing in it. -/
theorem not_writes_of (y : Ref sig .tc) (h : y ∉ kept) :
    ∀ r ∈ kept, Proc.devRef (τ := τ) .tc r ∉ ({Proc.devRef .tc y} : Finset (DevRef τ sig)) :=
  fun r hr hm => h ((Proc.devRef_injective _ (Finset.mem_singleton.mp hm)) ▸ hr)

/-- Every line of a stretch leaves the listed buffers alone. -/
abbrev Keeps (ops : List (HloOp τ sig (Elt F))) : Prop :=
  ops.Forall fun op => ∀ r ∈ kept, Proc.devRef .tc r ∉ op.writes

theorem keeps0 : Keeps (F := F) hostOps0 := by
  simp only [List.Forall]; repeat' apply And.intro
  all_goals exact not_writes_of _ (by decide)
theorem keeps1 : Keeps (F := F) hostOps1 := by
  simp only [List.Forall]; repeat' apply And.intro
  all_goals exact not_writes_of _ (by decide)
theorem keeps1_1 : Keeps (F := F) hostOps1_1 := by
  simp only [List.Forall]; repeat' apply And.intro
  all_goals exact not_writes_of _ (by decide)
theorem keeps1_2 : Keeps (F := F) hostOps1_2 := by
  simp only [List.Forall]; repeat' apply And.intro
  all_goals exact not_writes_of _ (by decide)
theorem keeps1_3 : Keeps (F := F) hostOps1_3 := by
  simp only [List.Forall]; repeat' apply And.intro
  all_goals exact not_writes_of _ (by decide)

/-- A listed buffer reads the same after any stretches that keep the list. -/
theorem after_kept (opss : List (List (HloOp τ sig (Elt F)))) (h : ∀ ops ∈ opss, Keeps ops)
    (W : Valuation τ sig (Elt F)) (r : Ref sig .tc) (hr : r ∈ kept) :
    StableHlo.after opss.flatten W (Proc.devRef .tc r) = W (Proc.devRef .tc r) :=
  StableHlo.after_of_forall_not_mem _ _ fun op hop hm => by
    obtain ⟨l, hl, hopl⟩ := List.mem_flatten.mp hop
    exact (List.forall_iff_forall_mem.mp (h l hl)) op hopl r hr hm

theorem tail_keeps : ∀ ops ∈ (tail : List (List (HloOp τ sig (Elt F)))), Keeps ops := by
  intro ops hops
  simp only [List.mem_cons, List.mem_nil_iff, or_false] at hops
  rcases hops with rfl | rfl | rfl | rfl
  · exact keeps1
  · exact keeps1_1
  · exact keeps1_2
  · exact keeps1_3

theorem head_keeps : ∀ ops ∈ ([hostOps0] : List (List (HloOp τ sig (Elt F)))), Keeps ops := by
  intro ops hops
  simp only [List.mem_cons, List.mem_nil_iff, or_false] at hops
  rcases hops with rfl
  exact keeps0

/-- No host line allocates. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor

/-! ## The program around its region -/

/-- Core c's buffer contents when the region is entered: after the 33 lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The program reduces to its region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact fresh0) main_chain

/-- The later lines touch the region's arrays and the buffers that bypass it, nothing else. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop

/-- Each of the region's three arrays is in the kept list. -/
theorem arr_kept : ∀ w, Pipeline.arrRef spec0 w ∈ kept := by decide

theorem sfx_keeps : ∀ ops ∈ (tail : List (List (HloOp τ sig (Elt F)))), ∀ op ∈ ops,
    ∀ w, Proc.devRef .tc (Pipeline.arrRef spec0 w) ∉ op.writes :=
  fun ops hops op hop w => (List.forall_iff_forall_mem.mp (tail_keeps ops hops)) op hop _ (arr_kept w)

/-- A kept buffer is found by the region as launched. -/
theorem V_kept (c : Dev nD) (r : Ref sig .tc) (hr : r ∈ kept) : V m c r = m ((c : Thread nD τ).loc r) :=
  after_kept [hostOps0] head_keeps _ r hr

/-- An argument array the region does not stage ends as launched: the later lines keep it, the region's exit
    contents have it as the region found it, and the earlier lines keep it. -/
theorem W_kept (dats : (p : Fin _) → (c : Dev nD) → Dat τ (Elt F) Unit ℕ (UR sig nD τ) ℕ (cfgs p) c) (c : Dev nD)
    (r : Ref sig .tc) (hr : r ∈ kept) (hne : ∀ w, Pipeline.arrRef spec0 w ≠ r) :
    Pipeline.afterTail₀ cfgs dats 0 (V0 m) tail c r = m ((c : Thread nD τ).loc r) := by
  unfold Pipeline.afterTail₀
  rw [after_kept tail tail_keeps _ r hr, Pipeline.withArrays_of_ne _ c (V0 m c) _ r hne]
  exact V_kept m c r hr

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (the 4000-row block of x is
    fetched at every point, W1 whole at the first point only and its index never moves). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S4000x512 := Rect.unit (s := S4000x512) ![0, 0] S4000x512.size inb_S4000x512_S4000x512_0_0
abbrev rW : Rect S512x16 := Rect.unit (s := S512x16) ![0, 0] S512x16.size inb_S512x16_S512x16_0_0
abbrev rO : Rect S4000x16 := Rect.unit (s := S4000x16) ![0, 0] S4000x16.size inb_S4000x16_S4000x16_0_0

/-- What the body leaves in the output block: its one store, whole, of the product of the two input blocks
    onto a zero accumulator. -/
def outBlk (x0 : Vec F S4000x512 .f32) (x1 : Vec F S512x16 .f32) : Vec F S4000x16 .f32 :=
  View.canon [⟨rO, k0_pay1 (View.ld x0 rX) (View.ld x1 rW)⟩]

/-- The one store covers the block. -/
theorem cover_out (p0 : Vec F S4000x16 .f32) (y : S4000x16.Idx) :
    ∃ pc ∈ ([⟨rO, p0⟩] : List (View.Piece (Elt F) S4000x16 .f32)), y ∈ pc.1.set :=
  View.cover_of_tiled [⟨rO, p0⟩] S4000x16.size (by rfl) y

set_option maxHeartbeats 1000000 in
/-- The body on whole staging buffers: the inputs' at contents x0, x1 and the output's at anything, it runs to the
    continuation with the inputs' as they were and the output's at outBlk x0 x1. -/
theorem sound_kernel (c : Dev nD) (E : Set ℕ) (i : grid0.Coords) (arg1 : Memref sig .tc .vmem S4000x512 .f32) (harg1 : arg1.IsWhole) (arg2 : Memref sig .tc .vmem S512x16 .f32) (harg2 : arg2.IsWhole) (arg3 : Memref sig .tc .vmem S4000x16 .f32) (harg3 : arg3.IsWhole)
    (x0 : Vec F S4000x512 .f32) (x1 : Vec F S512x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

/-- On core c: the arrays as the region finds them; after the body at point t the inputs' buffers at their blocks
    and the output's at outBlk of them; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlk (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates; every array of the region ends at what the proof data give, every
    other unscoped buffer at the later lines applied to the region's exit contents. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The run read at the result and the arguments: the result buffer ends at the later lines' value, the seven
    argument arrays as launched. -/
theorem run : θ_run defs (onTc (τ := τ) (main (F := F))) ⟨m, fun _ => 0, ρ⟩ (fun r => ∀ c : Dev nD,
      r.2.mem ((c.tc : Thread nD τ).loc main_v74) = Pipeline.afterTail₀ cfgs (dats m) 0 (V0 m) tail c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).2 main_v74 (Pipeline.mem_restRefs_of main_v74 (by decide) (by decide)),
     ((h c).1 0).trans ((((dats m) 0 c).arrAt_in 0 rfl _).trans ((A_eq m c 0).trans (V_kept m c main_arg0 (by decide)))),
     ((h c).1 1).trans ((((dats m) 0 c).arrAt_in 1 rfl _).trans ((A_eq m c 1).trans (V_kept m c main_arg1 (by decide)))),
     ((h c).2 main_arg2 (Pipeline.mem_restRefs_of main_arg2 (by decide) (by decide))).trans (W_kept m (dats m) c main_arg2 (by decide) (by decide)),
     ((h c).2 main_arg3 (Pipeline.mem_restRefs_of main_arg3 (by decide) (by decide))).trans (W_kept m (dats m) c main_arg3 (by decide) (by decide)),
     ((h c).2 main_arg4 (Pipeline.mem_restRefs_of main_arg4 (by decide) (by decide))).trans (W_kept m (dats m) c main_arg4 (by decide) (by decide)),
     ((h c).2 main_arg5 (Pipeline.mem_restRefs_of main_arg5 (by decide) (by decide))).trans (W_kept m (dats m) c main_arg5 (by decide) (by decide)),
     ((h c).2 main_arg6 (Pipeline.mem_restRefs_of main_arg6 (by decide) (by decide))).trans (W_kept m (dats m) c main_arg6 (by decide) (by decide))⟩)
    (run_main m ρ)

end Cert.Kernel.Hand

end
-- ==== Proof.KIRun.lean ====
/-
  The run of the program around its one region.

  The program is: 33 host lines (the edge lists with their self loops, the degrees, the
  normalising factor of every edge), ONE region — the row-tiled product x · W1, 25 blocks of 4000
  rows —, then 73 host lines in four stretches (the first aggregation with its bias, the clamp at
  zero, the second product and aggregation, the pooling over graphs and the row-wise log-softmax).

  Here: what the region finds in each buffer (V0), the block of each window at a grid point, what
  the body leaves in the output block (the product of the two input blocks onto a zero
  accumulator), the body's triple, the proof data, and the run: every execution terminates,
  the result buffer ends at the 73 later lines applied to the region's exit contents, and no
  argument array is changed — no host line writes one, and the region writes only its own result.
  Everything is stated at any float instance F.
-/
import proofs.«146940_j78640851189892_2_alg».proof.Proof.Gen.KernelIdeal.Launch
import proofs.«146940_j78640851189892_2_alg».proof.Proof.Gen.KernelIdeal.Skeleton
import proofs.«146940_j78640851189892_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines, and the buffers none of them writes -/

/-- The four stretches of host lines after the region, in order. -/
abbrev tail : List (List (HloOp τ sig (Elt F))) := [hostOps1, hostOps1_1, hostOps1_2, hostOps1_3]

/-- The seven argument arrays and the region's result array: no host line writes any of them. -/
def kept : List (Ref sig .tc) :=
  [main_arg0, main_arg1, main_arg2, main_arg3, main_arg4, main_arg5, main_arg6, main_v27]

/-- A line whose one written buffer is outside the list writes nothing in it. -/
theorem not_writes_of (y : Ref sig .tc) (h : y ∉ kept) :
    ∀ r ∈ kept, Proc.devRef (τ := τ) .tc r ∉ ({Proc.devRef .tc y} : Finset (DevRef τ sig)) :=
  fun r hr hm => h ((Proc.devRef_injective _ (Finset.mem_singleton.mp hm)) ▸ hr)

/-- Every line of a stretch leaves the listed buffers alone. -/
abbrev Keeps (ops : List (HloOp τ sig (Elt F))) : Prop :=
  ops.Forall fun op => ∀ r ∈ kept, Proc.devRef .tc r ∉ op.writes

theorem keeps0 : Keeps (F := F) hostOps0 := by
  simp only [List.Forall]; repeat' apply And.intro
  all_goals exact not_writes_of _ (by decide)
theorem keeps1 : Keeps (F := F) hostOps1 := by
  simp only [List.Forall]; repeat' apply And.intro
  all_goals exact not_writes_of _ (by decide)
theorem keeps1_1 : Keeps (F := F) hostOps1_1 := by
  simp only [List.Forall]; repeat' apply And.intro
  all_goals exact not_writes_of _ (by decide)
theorem keeps1_2 : Keeps (F := F) hostOps1_2 := by
  simp only [List.Forall]; repeat' apply And.intro
  all_goals exact not_writes_of _ (by decide)
theorem keeps1_3 : Keeps (F := F) hostOps1_3 := by
  simp only [List.Forall]; repeat' apply And.intro
  all_goals exact not_writes_of _ (by decide)

/-- A listed buffer reads the same after any stretches that keep the list. -/
theorem after_kept (opss : List (List (HloOp τ sig (Elt F)))) (h : ∀ ops ∈ opss, Keeps ops)
    (W : Valuation τ sig (Elt F)) (r : Ref sig .tc) (hr : r ∈ kept) :
    StableHlo.after opss.flatten W (Proc.devRef .tc r) = W (Proc.devRef .tc r) :=
  StableHlo.after_of_forall_not_mem _ _ fun op hop hm => by
    obtain ⟨l, hl, hopl⟩ := List.mem_flatten.mp hop
    exact (List.forall_iff_forall_mem.mp (h l hl)) op hopl r hr hm

theorem tail_keeps : ∀ ops ∈ (tail : List (List (HloOp τ sig (Elt F)))), Keeps ops := by
  intro ops hops
  simp only [List.mem_cons, List.mem_nil_iff, or_false] at hops
  rcases hops with rfl | rfl | rfl | rfl
  · exact keeps1
  · exact keeps1_1
  · exact keeps1_2
  · exact keeps1_3

theorem head_keeps : ∀ ops ∈ ([hostOps0] : List (List (HloOp τ sig (Elt F)))), Keeps ops := by
  intro ops hops
  simp only [List.mem_cons, List.mem_nil_iff, or_false] at hops
  rcases hops with rfl
  exact keeps0

/-- No host line allocates. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor

/-! ## The program around its region -/

/-- Core c's buffer contents when the region is entered: after the 33 lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The program reduces to its region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact fresh0) main_chain

/-- The later lines touch the region's arrays and the buffers that bypass it, nothing else. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop

/-- Each of the region's three arrays is in the kept list. -/
theorem arr_kept : ∀ w, Pipeline.arrRef spec0 w ∈ kept := by decide

theorem sfx_keeps : ∀ ops ∈ (tail : List (List (HloOp τ sig (Elt F)))), ∀ op ∈ ops,
    ∀ w, Proc.devRef .tc (Pipeline.arrRef spec0 w) ∉ op.writes :=
  fun ops hops op hop w => (List.forall_iff_forall_mem.mp (tail_keeps ops hops)) op hop _ (arr_kept w)

/-- A kept buffer is found by the region as launched. -/
theorem V_kept (c : Dev nD) (r : Ref sig .tc) (hr : r ∈ kept) : V m c r = m ((c : Thread nD τ).loc r) :=
  after_kept [hostOps0] head_keeps _ r hr

/-- An argument array the region does not stage ends as launched: the later lines keep it, the region's exit
    contents have it as the region found it, and the earlier lines keep it. -/
theorem W_kept (dats : (p : Fin _) → (c : Dev nD) → Dat τ (Elt F) Unit ℕ (UR sig nD τ) ℕ (cfgs p) c) (c : Dev nD)
    (r : Ref sig .tc) (hr : r ∈ kept) (hne : ∀ w, Pipeline.arrRef spec0 w ≠ r) :
    Pipeline.afterTail₀ cfgs dats 0 (V0 m) tail c r = m ((c : Thread nD τ).loc r) := by
  unfold Pipeline.afterTail₀
  rw [after_kept tail tail_keeps _ r hr, Pipeline.withArrays_of_ne _ c (V0 m c) _ r hne]
  exact V_kept m c r hr

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (the 4000-row block of x is
    fetched at every point, W1 whole at the first point only and its index never moves). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S4000x512 := Rect.unit (s := S4000x512) ![0, 0] S4000x512.size inb_S4000x512_S4000x512_0_0
abbrev rW : Rect S512x16 := Rect.unit (s := S512x16) ![0, 0] S512x16.size inb_S512x16_S512x16_0_0
abbrev rO : Rect S4000x16 := Rect.unit (s := S4000x16) ![0, 0] S4000x16.size inb_S4000x16_S4000x16_0_0

/-- What the body leaves in the output block: its one store, whole, of the product of the two input blocks
    onto a zero accumulator. -/
def outBlk (x0 : Vec F S4000x512 .f32) (x1 : Vec F S512x16 .f32) : Vec F S4000x16 .f32 :=
  View.canon [⟨rO, k0_pay1 (View.ld x0 rX) (View.ld x1 rW)⟩]

/-- The one store covers the block. -/
theorem cover_out (p0 : Vec F S4000x16 .f32) (y : S4000x16.Idx) :
    ∃ pc ∈ ([⟨rO, p0⟩] : List (View.Piece (Elt F) S4000x16 .f32)), y ∈ pc.1.set :=
  View.cover_of_tiled [⟨rO, p0⟩] S4000x16.size (by rfl) y

set_option maxHeartbeats 1000000 in
/-- The body on whole staging buffers: the inputs' at contents x0, x1 and the output's at anything, it runs to the
    continuation with the inputs' as they were and the output's at outBlk x0 x1. -/
theorem sound_kernel (c : Dev nD) (E : Set ℕ) (i : grid0.Coords) (arg1 : Memref sig .tc .vmem S4000x512 .f32) (harg1 : arg1.IsWhole) (arg2 : Memref sig .tc .vmem S512x16 .f32) (harg2 : arg2.IsWhole) (arg3 : Memref sig .tc .vmem S4000x16 .f32) (harg3 : arg3.IsWhole)
    (x0 : Vec F S4000x512 .f32) (x1 : Vec F S512x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

/-- On core c: the arrays as the region finds them; after the body at point t the inputs' buffers at their blocks
    and the output's at outBlk of them; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlk (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates; every array of the region ends at what the proof data give, every
    other unscoped buffer at the later lines applied to the region's exit contents. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The run read at the result and the arguments: the result buffer ends at the later lines' value, the seven
    argument arrays as launched. -/
theorem run : θ_run defs (onTc (τ := τ) (main (F := F))) ⟨m, fun _ => 0, ρ⟩ (fun r => ∀ c : Dev nD,
      r.2.mem ((c.tc : Thread nD τ).loc main_v74) = Pipeline.afterTail₀ cfgs (dats m) 0 (V0 m) tail c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).2 main_v74 (Pipeline.mem_restRefs_of main_v74 (by decide) (by decide)),
     ((h c).1 0).trans ((((dats m) 0 c).arrAt_in 0 rfl _).trans ((A_eq m c 0).trans (V_kept m c main_arg0 (by decide)))),
     ((h c).1 1).trans ((((dats m) 0 c).arrAt_in 1 rfl _).trans ((A_eq m c 1).trans (V_kept m c main_arg1 (by decide)))),
     ((h c).2 main_arg2 (Pipeline.mem_restRefs_of main_arg2 (by decide) (by decide))).trans (W_kept m (dats m) c main_arg2 (by decide) (by decide)),
     ((h c).2 main_arg3 (Pipeline.mem_restRefs_of main_arg3 (by decide) (by decide))).trans (W_kept m (dats m) c main_arg3 (by decide) (by decide)),
     ((h c).2 main_arg4 (Pipeline.mem_restRefs_of main_arg4 (by decide) (by decide))).trans (W_kept m (dats m) c main_arg4 (by decide) (by decide)),
     ((h c).2 main_arg5 (Pipeline.mem_restRefs_of main_arg5 (by decide) (by decide))).trans (W_kept m (dats m) c main_arg5 (by decide) (by decide)),
     ((h c).2 main_arg6 (Pipeline.mem_restRefs_of main_arg6 (by decide) (by decide))).trans (W_kept m (dats m) c main_arg6 (by decide) (by decide))⟩)
    (run_main m ρ)

end Cert.KernelIdeal.Hand

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«146940_j78640851189892_2_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.LibBand.lean ====
/-
  A band of rows of a matrix product is the product of the band.

  Entry (p, q) of a product is the sum over l of A (p, l) * W (l, q): it reads one row of the left factor.  So if the
  short array "a" holds rows o, o + 1, … of the tall array "A", then the product "a * W" at (p, q) is the product
  "A * W" at (o + p, q).  Both sides are the same sum of the same products: nothing about finiteness is used.
-/
import proofs.«146940_j78640851189892_2_alg».proof.Proof.LibMatProd

noncomputable section

open scoped BigOperators

namespace MatProd

open Idealize.ShloMosaic Idealize.ShloMosaic.ValueIdx

/-- The band of the product is the product of the band. "ha": row p of "a" is row r of "A" whenever r = o + p. -/
theorem mm_band {N n k m : ℕ} (A : (⟨2, ![N, k]⟩ : Shape).Idx → EReal) (a : (⟨2, ![n, k]⟩ : Shape).Idx → EReal)
    (W : (⟨2, ![k, m]⟩ : Shape).Idx → EReal) (o : ℕ)
    (ha : ∀ (p : Fin n) (r : Fin N), r.val = o + p.val → ∀ l : Fin k, a (ix2 p l) = A (ix2 r l))
    (j : (⟨2, ![n, m]⟩ : Shape).Idx) (i : (⟨2, ![N, m]⟩ : Shape).Idx)
    (h0 : (i 0).val = o + (j 0).val) (h1 : (i 1).val = (j 1).val) :
    mm a W j = mm A W i := by
  unfold mm entry
  have hq : (⟨(i 1).val, idx2_lt1 i⟩ : Fin m) = ⟨(j 1).val, idx2_lt1 j⟩ := Fin.ext h1
  rw [hq]
  refine Finset.sum_congr rfl fun l _ => ?_
  rw [ha ⟨(j 0).val, idx2_lt0 j⟩ ⟨(i 0).val, idx2_lt0 i⟩ h0 l]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.KIRegion.lean ====
/-
  What the region computes, at the exact instance: the whole product x · W1.

  At a grid point t the body multiplies the 4000-row block t of x by W1 (taken whole at every point) onto a zero
  accumulator; changes of float format are the identity on extended reals, so the stored block is the product of
  the two blocks.  An entry of a product reads ONE row of the left factor, so the product of rows 4000·t … 4000·t+3999
  of x with W1 is rows 4000·t … of x · W1 (the band law): what point t writes back is block t of the whole product.
  The 25 blocks tile the 100000 rows, so after the region the result array IS the product.  No finiteness is used:
  both sides are the same sums of the same products.
-/
import proofs.«146940_j78640851189892_2_alg».proof.Proof.KIRun
import proofs.«146940_j78640851189892_2_alg».proof.Proof.LibProdRows
import proofs.«146940_j78640851189892_2_alg».proof.Proof.LibBand
import proofs.«146940_j78640851189892_2_alg».proof.Proof.LibDot2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl

/-- The body's product contracts the columns of the x block against the rows of W1, and nothing else. -/
theorem plain_blk : MatProd.Plain dot_S4000x512_S512x16_S4000x16_1_0_0_1_n_n where
  hr := Dot2.rank_contr _ rfl
  hs := Dot2.size_contr _ rfl _
  hl0 := Dot2.lhs0 _ rfl rfl
  hl1 := Dot2.lhs1 _ rfl _
  hr0 := Dot2.rhs0 _ rfl _
  hr1 := Dot2.rhs1 _ rfl rfl rfl rfl

/-- The stored value is the product of the two loaded blocks. -/
theorem pay_eq (x0 : Vec Ideal S4000x512 .f32) (x1 : Vec Ideal S512x16 .f32) :
    k0_pay1 (F := Ideal) x0 x1 = MatProd.mm (n := 4000) (k := 512) (m := 16) x0 x1 := by
  unfold k0_pay1
  exact MatProd.matmul_zero_mm plain_blk none x0 x1

/-- The whole product of the two argument arrays as the region finds them. -/
def prodXW (c : Dev nD) : S100000x16.Idx → EReal :=
  MatProd.mm (n := 100000) (k := 512) (m := 16) (V m c main_arg0) (V m c main_arg1)

/-- The block maps over the grid: the x block moves with the output block down the rows, W1 stays at its origin,
    both the x block and the output block start at column 0, and there are 25 row blocks. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row block is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- The band law at one point, over plain variables: if x0 holds rows o, o+1, … of X and x1 is W, the product of
    the blocks at j is the whole product at (o + row of j, column of j). -/
theorem block_law (X : S100000x512.Idx → EReal) (W : S512x16.Idx → EReal)
    (x0 : S4000x512.Idx → EReal) (x1 : S512x16.Idx → EReal) (o : ℕ)
    (h0 : ∀ (p : Fin 4000) (r : Fin 100000), r.val = o + p.val → ∀ l : Fin 512, x0 (ix2 p l) = X (ix2 r l))
    (h1 : x1 = W) (j : S4000x16.Idx) (i : S100000x16.Idx)
    (e0 : (i 0).val = o + (j 0).val) (e1 : (i 1).val = (j 1).val) :
    MatProd.mm (n := 4000) (k := 512) (m := 16) x0 x1 j = MatProd.mm (n := 100000) (k := 512) (m := 16) X W i := by
  subst h1
  exact MatProd.mm_band X x0 x1 o h0 j i e0 e1

/-- What point t writes back is block t of the whole product. -/
theorem flushed_eq (c : Dev nD) (t : Fin cfg0.N) :
    (dats m 0 c).flushed 2 t = ((cfg0.win 2).blk t).view.read (Elt Ideal) (prodXW m c) := by
  show (cfg0.win 2).cut (grid0.coords t) ((dats m 0 c).after 2 t) = _
  rw [after2]
  unfold outBlk
  rw [View.canon_unit_zero hz2]
  simp only [View.ld_unit_zero (S := S4000x512) hz2, View.ld_unit_zero (S := S512x16) hz2]
  rw [pay_eq]
  obtain ⟨e0, e1, e2, e3, e4, e5⟩ := idx_facts t
  funext j
  show _ = prodXW m c (((cfg0.win 2).blk t).view.emb j)
  unfold prodXW
  refine block_law (V m c main_arg0) (V m c main_arg1) (iblk m c 0 t) (iblk m c 1 t)
    (win0_2.index t (0 : Fin 2) * 4000) ?_ ?_ j (((cfg0.win 2).blk t).view.emb j) ?_ ?_
  · intro p r hr l
    show V m c main_arg0 (((cfg0.win 0).blk t).view.emb (ix2 p l)) = V m c main_arg0 (ix2 r l)
    refine congrArg (V m c main_arg0) ?_
    funext a; apply Fin.ext
    match a with
    | ⟨0, _⟩ => show win0_0.index t (0 : Fin 2) * 4000 + 1 * p.val = r.val; omega
    | ⟨1, _⟩ => show win0_0.index t (1 : Fin 2) * 512 + 1 * l.val = l.val; omega
  · funext y
    show V m c main_arg1 (((cfg0.win 1).blk t).view.emb y) = V m c main_arg1 y
    refine congrArg (V m c main_arg1) ?_
    funext a; apply Fin.ext
    match a with
    | ⟨0, _⟩ => show win0_1.index t (0 : Fin 2) * 512 + 1 * (y 0).val = (y 0).val; omega
    | ⟨1, _⟩ => show win0_1.index t (1 : Fin 2) * 16 + 1 * (y 1).val = (y 1).val; omega
  · show win0_2.index t (0 : Fin 2) * 4000 + 1 * (j 0).val = win0_2.index t (0 : Fin 2) * 4000 + (j 0).val; omega
  · show win0_2.index t (1 : Fin 2) * 16 + 1 * (j 1).val = (j 1).val; omega

/-- An index is in point t's block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v27).slice (win0_2.rect t)).set ↔ _
  rw [View.set_slice_whole, Rect.mem_set_unit]
  exact Iff.rfl

/-- Every index of the result array is in the block of the point that holds its row: point (row / 4000). -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- After the region the result array is the whole product. -/
theorem final (c : Dev nD) : (dats m 0 c).arrAt 2 cfg0.N = prodXW m c :=
  (dats m 0 c).arrAt_eq_of_cover 2 (prodXW m c) (fun t _ => flushed_eq m c t) cover

end Cert.KernelIdeal.Hand

end
-- ==== Proof.Bridge.lean ====
/-
  The two programs compute one function.

  The host lines of the program around the region are, operation for operation, the reference's own lines: the edge
  lists with their self loops, the degrees as an accumulating scatter of ones, their reciprocal square roots gathered
  at both ends of every edge and multiplied, then per layer the gather of rows at the sources, the scaling by the
  edge's factor, the accumulating scatter at the targets, the bias; the clamp at zero between the layers; the
  pooling by graph; the row-wise log-softmax.  The reference recomputes the edge lists and the factors for its
  second layer, from the same argument by the same operations; the program computes them once.  The only place
  where the two differ in substance is the first product x · W1: the reference's one dot_general against the
  region's 25 row blocks, each a matrix-unit product onto zero — both are the array of sums over l of
  x (p, l) · W1 (l, q).  So the value is stated through the reference's own stages: the region's result is the
  reference's first product, the earlier lines' results are the reference's edge lists and factors, and the later
  lines applied to them are the reference's result.  No finiteness is used anywhere.
-/
import proofs.«146940_j78640851189892_2_alg».proof.Proof.KIRegion
import proofs.«146940_j78640851189892_2_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.ReferenceIdeal.Read (val_main_v97 val_main_v4 val_main_v6 val_main_v7 val_main_v27 val_main_v47 val_main_v48 val_main_v68
  val_main_v43 val_main_v44 val_main_v96)

/-! ## The first product -/

/-- The reference's first product contracts the columns of x against the rows of W1, and nothing else. -/
theorem plain_ref : MatProd.Plain Cert.ReferenceIdeal.dot_S100000x512_S512x16_S100000x16_1_0_0_1_n_n where
  hr := Dot2.rank_contr _ rfl
  hs := Dot2.size_contr _ rfl _
  hl0 := Dot2.lhs0 _ rfl rfl
  hl1 := Dot2.lhs1 _ rfl _
  hr0 := Dot2.rhs0 _ rfl _
  hr1 := Dot2.rhs1 _ rfl rfl rfl rfl

/-- The reference's first stage is the product array. -/
theorem ref_prod (x0 : S100000x512.Idx → EReal) (x1 : S512x16.Idx → EReal) :
    val_main_v4 (F := Ideal) x0 x1 = MatProd.mm (n := 100000) (k := 512) (m := 16) x0 x1 := by
  unfold Cert.ReferenceIdeal.Read.val_main_v4
  exact MatProd.dotGeneral_mm plain_ref none .single x0 x1

/-! ## The lines before the region -/

/-- The sources with their self loops, as the reference builds them. -/
theorem head_src (M : Valuation τ sig (Elt Ideal)) :
    StableHlo.after (List.flatten [hostOps0]) M (Proc.devRef .tc main_v5)
      = val_main_v6 (F := Ideal) (M (Proc.devRef .tc main_arg5)) := by
  simp only [hostOps0, List.flatten_cons, List.flatten_nil, List.append_nil]
  after_results_simp
  rfl

/-- The targets with their self loops. -/
theorem head_dst (M : Valuation τ sig (Elt Ideal)) :
    StableHlo.after (List.flatten [hostOps0]) M (Proc.devRef .tc main_v6)
      = val_main_v7 (F := Ideal) (M (Proc.devRef .tc main_arg5)) := by
  simp only [hostOps0, List.flatten_cons, List.flatten_nil, List.append_nil]
  after_results_simp
  rfl

/-- Every edge's normalising factor: the product of the reciprocal square roots of the degrees at its two ends. -/
theorem head_norm (M : Valuation τ sig (Elt Ideal)) :
    StableHlo.after (List.flatten [hostOps0]) M (Proc.devRef .tc main_v26)
      = val_main_v27 (F := Ideal) (M (Proc.devRef .tc main_arg5)) := by
  simp only [hostOps0, List.flatten_cons, List.flatten_nil, List.append_nil]
  after_results_simp
  rfl

/-! ## The reference's second copy of the edge lists and factors

The reference builds the edge lists, the degrees and the factors again for its second layer, by the same operations
from the same argument: the second copies are the first ones. -/

theorem dup_src (x5 : (⟨Cert.ReferenceIdeal.S2x3200000, .i32⟩ : BufTy).Contents (Elt Ideal)) :
    val_main_v47 (F := Ideal) x5 = val_main_v6 (F := Ideal) x5 := rfl
theorem dup_dst (x5 : (⟨Cert.ReferenceIdeal.S2x3200000, .i32⟩ : BufTy).Contents (Elt Ideal)) :
    val_main_v48 (F := Ideal) x5 = val_main_v7 (F := Ideal) x5 := rfl
theorem dup_norm (x5 : (⟨Cert.ReferenceIdeal.S2x3200000, .i32⟩ : BufTy).Contents (Elt Ideal)) :
    val_main_v68 (F := Ideal) x5 = val_main_v27 (F := Ideal) x5 := rfl

/-! ## The lines after the region, stretch by stretch

Each stretch is read from ANY contents W that hold the reference's stages in the buffers the stretch reads, and
leaves the reference's next stage in its result buffer.  In the two stretches that come from called functions the
result passes through changes of type that are identities; there the comparison is made with the incoming stage
still written as W's buffer. -/

/-- The first layer: gather the rows of the product at the sources, scale by the edge's factor, accumulate at the
    targets, add the bias. -/
theorem stage_layer1 (W : Valuation τ sig (Elt Ideal)) (x0 : (⟨Cert.ReferenceIdeal.S100000x512, .f32⟩ : BufTy).Contents (Elt Ideal))
    (x1 : (⟨Cert.ReferenceIdeal.S512x16, .f32⟩ : BufTy).Contents (Elt Ideal))
    (x2 : (⟨Cert.ReferenceIdeal.S16, .f32⟩ : BufTy).Contents (Elt Ideal))
    (x3 : (⟨Cert.ReferenceIdeal.S16x2, .f32⟩ : BufTy).Contents (Elt Ideal))
    (x4 : (⟨Cert.ReferenceIdeal.S2, .f32⟩ : BufTy).Contents (Elt Ideal))
    (x5 : (⟨Cert.ReferenceIdeal.S2x3200000, .i32⟩ : BufTy).Contents (Elt Ideal))
    (x6 : (⟨Cert.ReferenceIdeal.S100000, .i32⟩ : BufTy).Contents (Elt Ideal))
    (h27 : W (Proc.devRef .tc main_v27) = val_main_v4 (F := Ideal) x0 x1)
    (h5 : W (Proc.devRef .tc main_v5) = val_main_v6 (F := Ideal) x5)
    (h6 : W (Proc.devRef .tc main_v6) = val_main_v7 (F := Ideal) x5)
    (h26 : W (Proc.devRef .tc main_v26) = val_main_v27 (F := Ideal) x5)
    (h2 : W (Proc.devRef .tc main_arg2) = x2) :
    StableHlo.after (hostOps1 (F := Ideal)) W (Proc.devRef .tc main_v43) = val_main_v43 (F := Ideal) x0 x1 x2 x5 := by
  simp only [hostOps1]
  after_results_simp
  rw [h27, h5, h6, h26, h2]
  unfold Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_cst_6 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_c_5 Cert.ReferenceIdeal.Read.val_main_v30 Cert.ReferenceIdeal.Read.val_main_v29 Cert.ReferenceIdeal.Read.val_main_c_4 Cert.ReferenceIdeal.Read.val_main_v28
  rfl

/-- The clamp at zero between the layers. -/
theorem stage_relu (W : Valuation τ sig (Elt Ideal)) (x0 : (⟨Cert.ReferenceIdeal.S100000x512, .f32⟩ : BufTy).Contents (Elt Ideal))
    (x1 : (⟨Cert.ReferenceIdeal.S512x16, .f32⟩ : BufTy).Contents (Elt Ideal))
    (x2 : (⟨Cert.ReferenceIdeal.S16, .f32⟩ : BufTy).Contents (Elt Ideal))
    (x3 : (⟨Cert.ReferenceIdeal.S16x2, .f32⟩ : BufTy).Contents (Elt Ideal))
    (x4 : (⟨Cert.ReferenceIdeal.S2, .f32⟩ : BufTy).Contents (Elt Ideal))
    (x5 : (⟨Cert.ReferenceIdeal.S2x3200000, .i32⟩ : BufTy).Contents (Elt Ideal))
    (x6 : (⟨Cert.ReferenceIdeal.S100000, .i32⟩ : BufTy).Contents (Elt Ideal))
    (h43 : W (Proc.devRef .tc main_v43) = val_main_v43 (F := Ideal) x0 x1 x2 x5) :
    StableHlo.after (hostOps1_1 (F := Ideal)) W (Proc.devRef .tc main_v44) = val_main_v44 (F := Ideal) x0 x1 x2 x5 := by
  simp only [hostOps1_1]
  after_results_simp
  unfold Cert.ReferenceIdeal.Read.val_main_v44 Cert.ReferenceIdeal.Read.val_main_call0_v0 Cert.ReferenceIdeal.Read.val_main_call0_cst
  rw [← h43]
  rfl

/-- The second layer and the pooling: the product with W2, the same aggregation with the same edge lists and
    factors, the bias; then per graph the sum of its nodes' rows divided by the clamped node count. -/
theorem stage_layer2_pool (W : Valuation τ sig (Elt Ideal)) (x0 : (⟨Cert.ReferenceIdeal.S100000x512, .f32⟩ : BufTy).Contents (Elt Ideal))
    (x1 : (⟨Cert.ReferenceIdeal.S512x16, .f32⟩ : BufTy).Contents (Elt Ideal))
    (x2 : (⟨Cert.ReferenceIdeal.S16, .f32⟩ : BufTy).Contents (Elt Ideal))
    (x3 : (⟨Cert.ReferenceIdeal.S16x2, .f32⟩ : BufTy).Contents (Elt Ideal))
    (x4 : (⟨Cert.ReferenceIdeal.S2, .f32⟩ : BufTy).Contents (Elt Ideal))
    (x5 : (⟨Cert.ReferenceIdeal.S2x3200000, .i32⟩ : BufTy).Contents (Elt Ideal))
    (x6 : (⟨Cert.ReferenceIdeal.S100000, .i32⟩ : BufTy).Contents (Elt Ideal))
    (h44 : W (Proc.devRef .tc main_v44) = val_main_v44 (F := Ideal) x0 x1 x2 x5)
    (h5 : W (Proc.devRef .tc main_v5) = val_main_v6 (F := Ideal) x5)
    (h6 : W (Proc.devRef .tc main_v6) = val_main_v7 (F := Ideal) x5)
    (h26 : W (Proc.devRef .tc main_v26) = val_main_v27 (F := Ideal) x5)
    (h3 : W (Proc.devRef .tc main_arg3) = x3) (h4 : W (Proc.devRef .tc main_arg4) = x4)
    (hb : W (Proc.devRef .tc main_arg6) = x6) :
    StableHlo.after (hostOps1_2 (F := Ideal)) W (Proc.devRef .tc main_v73) = val_main_v96 (F := Ideal) x0 x1 x2 x3 x4 x5 x6 := by
  simp only [hostOps1_2]
  after_results_simp
  rw [h44, h5, h6, h26, h3, h4, hb]
  unfold Cert.ReferenceIdeal.Read.val_main_v96 Cert.ReferenceIdeal.Read.val_main_v95 Cert.ReferenceIdeal.Read.val_main_v94 Cert.ReferenceIdeal.Read.val_main_v93 Cert.ReferenceIdeal.Read.val_main_v92 Cert.ReferenceIdeal.Read.val_main_cst_19 Cert.ReferenceIdeal.Read.val_main_v91 Cert.ReferenceIdeal.Read.val_main_v90 Cert.ReferenceIdeal.Read.val_main_v89 Cert.ReferenceIdeal.Read.val_main_cst_18 Cert.ReferenceIdeal.Read.val_main_v88 Cert.ReferenceIdeal.Read.val_main_cst_17 Cert.ReferenceIdeal.Read.val_main_v87 Cert.ReferenceIdeal.Read.val_main_v86 Cert.ReferenceIdeal.Read.val_main_v85 Cert.ReferenceIdeal.Read.val_main_cst_16 Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_cst_15 Cert.ReferenceIdeal.Read.val_main_v78 Cert.ReferenceIdeal.Read.val_main_v77 Cert.ReferenceIdeal.Read.val_main_v76 Cert.ReferenceIdeal.Read.val_main_v75 Cert.ReferenceIdeal.Read.val_main_v74 Cert.ReferenceIdeal.Read.val_main_v73 Cert.ReferenceIdeal.Read.val_main_v72 Cert.ReferenceIdeal.Read.val_main_c_14 Cert.ReferenceIdeal.Read.val_main_v71 Cert.ReferenceIdeal.Read.val_main_v70 Cert.ReferenceIdeal.Read.val_main_c_13 Cert.ReferenceIdeal.Read.val_main_v69 Cert.ReferenceIdeal.Read.val_main_v45
  rw [dup_src, dup_dst, dup_norm]
  rfl

/-- The row-wise log-softmax of the pooled array. -/
theorem stage_logsoftmax (W : Valuation τ sig (Elt Ideal)) (x0 : (⟨Cert.ReferenceIdeal.S100000x512, .f32⟩ : BufTy).Contents (Elt Ideal))
    (x1 : (⟨Cert.ReferenceIdeal.S512x16, .f32⟩ : BufTy).Contents (Elt Ideal))
    (x2 : (⟨Cert.ReferenceIdeal.S16, .f32⟩ : BufTy).Contents (Elt Ideal))
    (x3 : (⟨Cert.ReferenceIdeal.S16x2, .f32⟩ : BufTy).Contents (Elt Ideal))
    (x4 : (⟨Cert.ReferenceIdeal.S2, .f32⟩ : BufTy).Contents (Elt Ideal))
    (x5 : (⟨Cert.ReferenceIdeal.S2x3200000, .i32⟩ : BufTy).Contents (Elt Ideal))
    (x6 : (⟨Cert.ReferenceIdeal.S100000, .i32⟩ : BufTy).Contents (Elt Ideal))
    (h73 : W (Proc.devRef .tc main_v73) = val_main_v96 (F := Ideal) x0 x1 x2 x3 x4 x5 x6) :
    StableHlo.after (hostOps1_3 (F := Ideal)) W (Proc.devRef .tc main_v74) = val_main_v97 (F := Ideal) x0 x1 x2 x3 x4 x5 x6 := by
  simp only [hostOps1_3]
  after_results_simp
  unfold Cert.ReferenceIdeal.Read.val_main_v97 Cert.ReferenceIdeal.Read.val_main_call1_v10 Cert.ReferenceIdeal.Read.val_main_call1_v9 Cert.ReferenceIdeal.Read.val_main_call1_v8 Cert.ReferenceIdeal.Read.val_main_call1_v7 Cert.ReferenceIdeal.Read.val_main_call1_cst_1 Cert.ReferenceIdeal.Read.val_main_call1_v6 Cert.ReferenceIdeal.Read.val_main_call1_v5 Cert.ReferenceIdeal.Read.val_main_call1_v4 Cert.ReferenceIdeal.Read.val_main_call1_v3 Cert.ReferenceIdeal.Read.val_main_call1_v2 Cert.ReferenceIdeal.Read.val_main_call1_v1 Cert.ReferenceIdeal.Read.val_main_call1_cst_0 Cert.ReferenceIdeal.Read.val_main_call1_v0 Cert.ReferenceIdeal.Read.val_main_call1_cst
  rw [← h73]
  rfl

/-! ## The four stretches, one after the other -/

/-- Buffers the first two stretches read or pass by without writing: the edge lists, the factors, and three arguments. -/
def mid : List (Ref sig .tc) := [main_v5, main_v6, main_v26, main_arg3, main_arg4, main_arg6]

theorem not_writes_mid (y : Ref sig .tc) (h : y ∉ mid) :
    ∀ r ∈ mid, Proc.devRef (τ := τ) .tc r ∉ ({Proc.devRef .tc y} : Finset (DevRef τ sig)) :=
  fun r hr hm => h ((Proc.devRef_injective _ (Finset.mem_singleton.mp hm)) ▸ hr)

theorem mid1 : (hostOps1 (F := Ideal)).Forall fun op => ∀ r ∈ mid, Proc.devRef .tc r ∉ op.writes := by
  simp only [List.Forall]; repeat' apply And.intro
  all_goals exact not_writes_mid _ (by decide)
theorem mid1_1 : (hostOps1_1 (F := Ideal)).Forall fun op => ∀ r ∈ mid, Proc.devRef .tc r ∉ op.writes := by
  simp only [List.Forall]; repeat' apply And.intro
  all_goals exact not_writes_mid _ (by decide)

theorem after_mid (ops : List (HloOp τ sig (Elt Ideal)))
    (h : ops.Forall fun op => ∀ r ∈ mid, Proc.devRef .tc r ∉ op.writes)
    (W : Valuation τ sig (Elt Ideal)) (r : Ref sig .tc) (hr : r ∈ mid) :
    StableHlo.after ops W (Proc.devRef .tc r) = W (Proc.devRef .tc r) :=
  StableHlo.after_of_forall_not_mem _ _ fun op hop hm => (List.forall_iff_forall_mem.mp h) op hop r hr hm

/-- From any contents that hold the reference's first product in the region's result array, the reference's edge
    lists and factors in the earlier lines' result buffers, and the arguments, the 73 later lines leave the
    reference's result. -/
theorem tail_read (W : Valuation τ sig (Elt Ideal)) (x0 : (⟨Cert.ReferenceIdeal.S100000x512, .f32⟩ : BufTy).Contents (Elt Ideal))
    (x1 : (⟨Cert.ReferenceIdeal.S512x16, .f32⟩ : BufTy).Contents (Elt Ideal))
    (x2 : (⟨Cert.ReferenceIdeal.S16, .f32⟩ : BufTy).Contents (Elt Ideal))
    (x3 : (⟨Cert.ReferenceIdeal.S16x2, .f32⟩ : BufTy).Contents (Elt Ideal))
    (x4 : (⟨Cert.ReferenceIdeal.S2, .f32⟩ : BufTy).Contents (Elt Ideal))
    (x5 : (⟨Cert.ReferenceIdeal.S2x3200000, .i32⟩ : BufTy).Contents (Elt Ideal))
    (x6 : (⟨Cert.ReferenceIdeal.S100000, .i32⟩ : BufTy).Contents (Elt Ideal))
    (h27 : W (Proc.devRef .tc main_v27) = val_main_v4 (F := Ideal) x0 x1)
    (h5 : W (Proc.devRef .tc main_v5) = val_main_v6 (F := Ideal) x5)
    (h6 : W (Proc.devRef .tc main_v6) = val_main_v7 (F := Ideal) x5)
    (h26 : W (Proc.devRef .tc main_v26) = val_main_v27 (F := Ideal) x5)
    (h2 : W (Proc.devRef .tc main_arg2) = x2) (h3 : W (Proc.devRef .tc main_arg3) = x3)
    (h4 : W (Proc.devRef .tc main_arg4) = x4) (hb : W (Proc.devRef .tc main_arg6) = x6) :
    StableHlo.after (tail (F := Ideal)).flatten W (Proc.devRef .tc main_v74)
      = val_main_v97 (F := Ideal) x0 x1 x2 x3 x4 x5 x6 := by
  have e : (tail (F := Ideal)).flatten = hostOps1 ++ (hostOps1_1 ++ (hostOps1_2 ++ hostOps1_3)) := by
    simp only [tail, List.flatten_cons, List.flatten_nil, List.append_nil]
  rw [e, StableHlo.after_append, StableHlo.after_append, StableHlo.after_append]
  refine stage_logsoftmax _ x0 x1 x2 x3 x4 x5 x6 ?_
  refine stage_layer2_pool _ x0 x1 x2 x3 x4 x5 x6 ?_ ?_ ?_ ?_ ?_ ?_ ?_
  · exact stage_relu _ x0 x1 x2 x3 x4 x5 x6 (stage_layer1 W x0 x1 x2 x3 x4 x5 x6 h27 h5 h6 h26 h2)
  · rw [after_mid _ mid1_1 _ main_v5 (by decide), after_mid _ mid1 _ main_v5 (by decide)]; exact h5
  · rw [after_mid _ mid1_1 _ main_v6 (by decide), after_mid _ mid1 _ main_v6 (by decide)]; exact h6
  · rw [after_mid _ mid1_1 _ main_v26 (by decide), after_mid _ mid1 _ main_v26 (by decide)]; exact h26
  · rw [after_mid _ mid1_1 _ main_arg3 (by decide), after_mid _ mid1 _ main_arg3 (by decide)]; exact h3
  · rw [after_mid _ mid1_1 _ main_arg4 (by decide), after_mid _ mid1 _ main_arg4 (by decide)]; exact h4
  · rw [after_mid _ mid1_1 _ main_arg6 (by decide), after_mid _ mid1 _ main_arg6 (by decide)]; exact hb

/-! ## The program's result -/

variable (m : (ℓ : Loc nD τ sig) → Buf (Elt Ideal) ℓ)

/-- Core c's buffer contents at the region's exit: its three arrays as the proof data give them, the rest as found. -/
abbrev exitV (c : Dev nD) : Valuation τ sig (Elt Ideal) :=
  Pipeline.withArrays spec0 c (V0 m c) fun w => (dats m 0 c).arrAt w cfg0.N

/-- A buffer that is none of the region's arrays holds at the exit what the region found. -/
theorem exit_other (c : Dev nD) (r : Ref sig .tc) (h : ∀ w, Pipeline.arrRef spec0 w ≠ r) :
    exitV m c (Proc.devRef .tc r) = V m c r :=
  Pipeline.withArrays_of_ne _ c (V0 m c) _ r h

/-- An argument the region does not stage holds at the exit what was launched. -/
theorem exit_arg (c : Dev nD) (r : Ref sig .tc) (h : ∀ w, Pipeline.arrRef spec0 w ≠ r) (hr : r ∈ kept) :
    exitV m c (Proc.devRef .tc r) = m ((c : Thread nD τ).loc r) :=
  (exit_other m c r h).trans (V_kept m c r hr)

/-- The region's result array holds at the exit the reference's first product of the launched x and W1. -/
theorem exit_prod (c : Dev nD) :
    exitV m c (Proc.devRef .tc main_v27)
      = val_main_v4 (F := Ideal) (m ((c : Thread nD τ).loc main_arg0)) (m ((c : Thread nD τ).loc main_arg1)) := by
  refine (Pipeline.withArrays_arr spec0 launch0.win.arr_inj c (V0 m c) _ 2).trans ((final m c).trans ?_)
  unfold prodXW
  rw [V_kept m c main_arg0 (by decide), V_kept m c main_arg1 (by decide)]
  exact (ref_prod _ _).symm

/-- THE VALUE: the result buffer's final contents are the reference's result stage of the launched arguments. -/
theorem value (c : Dev nD) :
    Pipeline.afterTail₀ cfgs (dats m) 0 (V0 m) tail c main_v74
      = val_main_v97 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  unfold Pipeline.afterTail₀
  exact tail_read (exitV m c) _ _ _ _ _ (m ((c : Thread nD τ).loc main_arg5)) _ (exit_prod m c)
    ((exit_other m c main_v5 (by decide)).trans (head_src _))
    ((exit_other m c main_v6 (by decide)).trans (head_dst _))
    ((exit_other m c main_v26 (by decide)).trans (head_norm _))
    (exit_arg m c main_arg2 (by decide) (by decide)) (exit_arg m c main_arg3 (by decide) (by decide))
    (exit_arg m c main_arg4 (by decide) (by decide)) (exit_arg m c main_arg6 (by decide) (by decide))

end Cert.KernelIdeal.Hand

end
-- ==== Proof.lean ====
/-
  The five claims of this certificate, assembled.

  The program is a two-layer graph convolution with mean pooling and a log-softmax; its one region is the first
  layer's dense product x · W1, tiled by rows, and everything else is host lines shared with the reference.
  The three frames: the program at the word level and at the exact instance run to the end and leave their
  arguments alone (Proof/KRun, Proof/KIRun: the same argument at any float instance), and so does the reference
  (its run read back).  The idealization rewrote no operation, so that claim is trivial.  At the exact instance the
  two results are one function of the arguments (Proof/KIRegion: the 25 row blocks are the whole product;
  Proof/Bridge: every other line is the reference's own).
-/
import proofs.«146940_j78640851189892_2_alg».proof.Defs
import proofs.«146940_j78640851189892_2_alg».proof.Proof.KRun
import proofs.«146940_j78640851189892_2_alg».proof.Proof.Bridge
import proofs.«146940_j78640851189892_2_alg».proof.Proof.Gen.Kernel
import proofs.«146940_j78640851189892_2_alg».proof.Proof.Gen.KernelIdeal
import proofs.«146940_j78640851189892_2_alg».proof.Proof.Gen.ReferenceIdeal
import proofs.«146940_j78640851189892_2_alg».proof.Proof.Gen.Pre_finite_inputs
import proofs.«146940_j78640851189892_2_alg».proof.Proof.Gen.ReferenceIdeal.Run
import proofs.«146940_j78640851189892_2_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

/-- The program at the word level runs and leaves its arguments unchanged. -/
theorem frame_k : Cert.frame_Kernel := fun m ρ _ =>
  (θ_run Cert.Kernel.defs _ _).mono (fun _ h c => (h c).2) (Cert.Kernel.Hand.run (F := Bits) m ρ)

/-- So does it at the exact instance. -/
theorem frame_ki : Cert.frame_KernelIdeal := fun m ρ _ =>
  (θ_run Cert.KernelIdeal.defs _ _).mono (fun _ h c => (h c).2) (Cert.KernelIdeal.Hand.run (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories that agree on the arguments both programs end with the reference's result stage of them. -/
theorem algebraic : Cert.algebraic_KernelIdeal_ReferenceIdeal := by
  intro m ρ m' ρ' _ hagree
  refine ⟨fun c => Cert.ReferenceIdeal.Read.val_main_v97 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.value m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
